-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S1x1 : Shape := ⟨2, ![1, 1]⟩
abbrev S50000x1 : Shape := ⟨2, ![50000, 1]⟩
abbrev S5000x1 : Shape := ⟨2, ![5000, 1]⟩
abbrev S5000x64 : Shape := ⟨2, ![5000, 64]⟩
abbrev S50000 : Shape := ⟨1, ![50000]⟩

abbrev nBuf : Space → Nat
  | .hbm => 54
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S1x64, .f32⟩
  | .hbm, ⟨51, _⟩ => ⟨S1x1, .f32⟩
  | .hbm, ⟨52, _⟩ => ⟨S50000x1, .f32⟩
  | .hbm, ⟨53, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S50000x1 : Shape := ⟨2, ![50000, 1]⟩
abbrev S1x1 : Shape := ⟨2, ![1, 1]⟩
abbrev S50000 : Shape := ⟨1, ![50000]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S50000x1, .f32⟩
  | .hbm, ⟨88, _⟩ => ⟨S1x1, .f32⟩
  | .hbm, ⟨89, _⟩ => ⟨S50000x1, .f32⟩
  | .hbm, ⟨90, _⟩ => ⟨S50000x1, .f32⟩
  | .hbm, ⟨91, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_cst : Ref sig .tc := ⟨.hbm, 46, rfl⟩
abbrev main_call1_v0 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_cst : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call4_cst : Ref sig .tc := ⟨.hbm, 84, rfl⟩
abbrev main_call4_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.WholeRun.lean ====
/-
  The kernel program's run, with the final contents of every buffer named.

  The program is seven segments: host operations, a region, host operations, a region, host operations, a region, host
  operations. The buffer contents at each segment boundary are a fold from the launch memory: a stretch of host
  operations rewrites the buffers it computes, a region leaves in each of its arrays what its write-backs leave and
  every other buffer as it found it. The last valuation of that fold is what every buffer that is not scoped to a
  region holds in any final state; in particular the result buffer, and the argument arrays, which no segment writes.
-/
import proofs.«132873_j64295660421276_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    in every final state the result buffer holds what the last valuation of the fold gives it, and the argument arrays
    are as launched. -/
theorem run : θ_run defs (onTc (τ := τ) (main (F := F))) ⟨m, fun _ => 0, ρ⟩ (fun r => ∀ c : Dev nD,
      r.2.mem ((c.tc : Thread nD τ).loc main_v33) = W7 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v33 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.WholeRun

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«132873_j64295660421276_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibMlpRows.lean ====
/-
  The two-layer perceptron of one round, read one node row at a time on the extended reals.

  For a row `z` of input features, `mlpRow z W1 b1 W2 b2 = max (max (z · W1 + b1) 0 · W2 + b2) 0` (the maxima
  entrywise). Row `r` of the perceptron applied to `x + a` depends on row `r` of `x` and of `a` alone, so the same
  function of the row comes out whether the perceptron is spelt over a block of rows (matrix products accumulated into
  zeros, the biases held as one-row matrices spread over the rows, changes of float format in between, which are the
  identity on the extended reals) or over all rows at once (host contractions, the biases broadcast in dimension).
-/
import Idealize.ShloMosaic.Lib.ValueLayout
import Idealize.ShloMosaic.Lib.ValueIdx
import Idealize.ShloMosaic.PureOps.Ideal.Laws
import proofs.«132873_j64295660421276_1_alg».proof.Proof.LibDenseRows
import proofs.«132873_j64295660421276_1_alg».proof.Proof.LibBlockRows

noncomputable section

namespace Cert.MlpRows

open Idealize.ShloMosaic Idealize.ShloMosaic.ValueIdx Cert.DenseRows Cert.LibBlockRows

/-- The perceptron on one row. -/
def mlpRow {K H : ℕ} (z : Fin K → EReal) (W1 : Fin K → Fin H → EReal) (b1 : Fin H → EReal)
    (W2 : Fin H → Fin H → EReal) (b2 : Fin H → EReal) : Fin H → EReal :=
  floorAt (Ideal.ofBits .f32 0x00000000#32) (affine (floorAt (Ideal.ofBits .f32 0x00000000#32) (affine z W1 b1)) W2 b2)

/-- Row `r` of the perceptron spelt over a block of `R` rows. -/
theorem block_row {R K H : ℕ} (d1 : DotDims ⟨2, ![R, K]⟩ ⟨2, ![K, H]⟩ ⟨2, ![R, H]⟩) (hd1 : d1 = DotDims.plain R K H)
    (d2 : DotDims ⟨2, ![R, H]⟩ ⟨2, ![H, H]⟩ ⟨2, ![R, H]⟩) (hd2 : d2 = DotDims.plain R H H)
    (x a : FVec Ideal ⟨2, ![R, K]⟩ .f32) (w1 : FVec Ideal ⟨2, ![K, H]⟩ .f32) (b1 : FVec Ideal ⟨2, ![1, H]⟩ .f32)
    (w2 : FVec Ideal ⟨2, ![H, H]⟩ .f32) (b2 : FVec Ideal ⟨2, ![1, H]⟩ .f32)
    (hlt : FTy.bf16.bits < FTy.f32.bits) (hb : (⟨2, ![1, H]⟩ : Shape).Broadcasts ⟨2, ![R, H]⟩) (r : Fin R) :
    row (maximumf (addf (matmul d2 none
        (truncf .bf16 (maximumf (addf (matmul d1 none (truncf .bf16 (addf x a) hlt) (truncf .bf16 w1 hlt)
            (constant (F := Ideal) ⟨2, ![R, H]⟩ .f32 0x00000000#32)) (broadcastTo ⟨2, ![R, H]⟩ b1 hb))
          (broadcast ⟨2, ![R, H]⟩ (Scalar.ofBits (F := Ideal) .f32 0x00000000#32))) hlt)
        (truncf .bf16 w2 hlt) (constant (F := Ideal) ⟨2, ![R, H]⟩ .f32 0x00000000#32)) (broadcastTo ⟨2, ![R, H]⟩ b2 hb))
      (broadcast ⟨2, ![R, H]⟩ (Scalar.ofBits (F := Ideal) .f32 0x00000000#32))) r
      = mlpRow (fun k => row x r k + row a r k) (mat w1) (row b1 (0 : Fin 1)) (mat w2) (row b2 (0 : Fin 1)) := by
  rw [row_max_splat, row_matmul_rowbias d2 hd2, row_truncf, row_max_splat, row_matmul_rowbias d1 hd1, row_truncf]
  rfl

/-- Row `r` of the perceptron spelt over all `R` rows at once. -/
theorem whole_row {R K H : ℕ} (d1 : DotDims ⟨2, ![R, K]⟩ ⟨2, ![K, H]⟩ ⟨2, ![R, H]⟩) (hd1 : d1 = DotDims.plain R K H)
    (d2 : DotDims ⟨2, ![R, H]⟩ ⟨2, ![H, H]⟩ ⟨2, ![R, H]⟩) (hd2 : d2 = DotDims.plain R H H)
    (x a : FVec Ideal ⟨2, ![R, K]⟩ .f32) (w1 : FVec Ideal ⟨2, ![K, H]⟩ .f32) (b1 : FVec Ideal ⟨1, ![H]⟩ .f32)
    (w2 : FVec Ideal ⟨2, ![H, H]⟩ .f32) (b2 : FVec Ideal ⟨1, ![H]⟩ .f32)
    (h1 : (⟨1, ![H]⟩ : Shape).BroadcastsInDim ⟨2, ![1, H]⟩ ![1])
    (h2 : (⟨2, ![1, H]⟩ : Shape).BroadcastsInDim ⟨2, ![R, H]⟩ ![0, 1])
    (dims : Fin (⟨0, ![]⟩ : Shape).rank → Fin (⟨2, ![R, H]⟩ : Shape).rank)
    (h0 : (⟨0, ![]⟩ : Shape).BroadcastsInDim ⟨2, ![R, H]⟩ dims) (r : Fin R) :
    row (maximumf (addf (Host.dotGeneral d2 none
        (maximumf (addf (Host.dotGeneral d1 none (addf x a) w1)
            (broadcastInDim ⟨2, ![R, H]⟩ ![0, 1] h2 (broadcastInDim ⟨2, ![1, H]⟩ ![1] h1 b1)))
          (broadcastInDim ⟨2, ![R, H]⟩ dims h0 (constant (F := Ideal) ⟨0, ![]⟩ .f32 0x00000000#32)))
        w2) (broadcastInDim ⟨2, ![R, H]⟩ ![0, 1] h2 (broadcastInDim ⟨2, ![1, H]⟩ ![1] h1 b2)))
      (broadcastInDim ⟨2, ![R, H]⟩ dims h0 (constant (F := Ideal) ⟨0, ![]⟩ .f32 0x00000000#32))) r
      = mlpRow (fun k => row x r k + row a r k) (mat w1) (vec b1) (mat w2) (vec b2) := by
  rw [row_max_splatInDim, row_dotGeneral_bias d2 hd2, row_max_splatInDim, row_dotGeneral_bias d1 hd1]
  rfl

/-- Two `[R, N]` arrays with the same rows are the same array. -/
theorem ext_rows {R N : ℕ} (u v : (⟨2, ![R, N]⟩ : Shape).Idx → EReal) (h : ∀ r : Fin R, row u r = row v r) : u = v := by
  funext j
  obtain ⟨p, q, rfl⟩ : ∃ (p : Fin R) (q : Fin N), j = ix2 p q := ⟨j 0, j 1, eq_ix2 j⟩
  exact congrFun (h p) q

end Cert.MlpRows

end
-- ==== Proof.LibPerceptron.lean ====
/-
  A two-layer perceptron with a rectifier between its layers, read one row at a time on the extended reals.

  For an `[R, K]` array `x`, weights `w1 : [K, N]`, `w2 : [N, P]` and biases `b1 : [N]`, `b2 : [P]`, row `r` of
  `max (x · w1 + b1) 0 · w2 + b2` depends on row `r` of `x` alone: it is `twoLayer` of that row. `rows` is the whole
  array assembled from its rows. Two spellings of the perceptron are shown equal to `rows`: the one a kernel block
  computes (matrix products accumulated into the zero splat, operands narrowed to a shorter float format, the bias
  cast to a row and broadcast) and the one the host computes (`dot_general`, the bias broadcast in dimension twice,
  the rectifier as a maximum with a broadcast zero). A block of rows therefore computes the rows of the whole.
-/
import proofs.«132873_j64295660421276_1_alg».proof.Proof.LibDenseRows

noncomputable section

namespace Cert.Perceptron

open Idealize.ShloMosaic Idealize.ShloMosaic.ValueIdx Cert.DenseRows

/-- Two dense layers with a rectifier between them, applied to one row. The threshold is the float word of zero. -/
def twoLayer {K N P : ℕ} (h : Fin K → EReal) (W1 : Fin K → Fin N → EReal) (b1 : Fin N → EReal)
    (W2 : Fin N → Fin P → EReal) (b2 : Fin P → EReal) : Fin P → EReal :=
  affine (floorAt (Ideal.ofBits .f32 0x00000000#32) (affine h W1 b1)) W2 b2

/-- The perceptron applied to every row of `x`: entry `(r, p)` is entry `p` of `twoLayer` of row `r`. -/
def rows {R K N P : ℕ} (x : (⟨2, ![R, K]⟩ : Shape).Idx → EReal) (w1 : (⟨2, ![K, N]⟩ : Shape).Idx → EReal)
    (b1 : (⟨1, ![N]⟩ : Shape).Idx → EReal) (w2 : (⟨2, ![N, P]⟩ : Shape).Idx → EReal)
    (b2 : (⟨1, ![P]⟩ : Shape).Idx → EReal) : (⟨2, ![R, P]⟩ : Shape).Idx → EReal :=
  fun i => twoLayer (row x (i 0)) (mat w1) (vec b1) (mat w2) (vec b2) (i 1)

/-- Row `r` of `rows` is `twoLayer` of row `r`. -/
theorem row_rows {R K N P : ℕ} (x : (⟨2, ![R, K]⟩ : Shape).Idx → EReal) (w1 : (⟨2, ![K, N]⟩ : Shape).Idx → EReal)
    (b1 : (⟨1, ![N]⟩ : Shape).Idx → EReal) (w2 : (⟨2, ![N, P]⟩ : Shape).Idx → EReal)
    (b2 : (⟨1, ![P]⟩ : Shape).Idx → EReal) (r : Fin R) :
    row (rows x w1 b1 w2 b2) r = twoLayer (row x r) (mat w1) (vec b1) (mat w2) (vec b2) := rfl

/-- Two `[R, N]` arrays with the same rows are equal. -/
theorem eq_of_rows {R N : ℕ} (A B : (⟨2, ![R, N]⟩ : Shape).Idx → EReal) (h : ∀ r : Fin R, row A r = row B r) : A = B := by
  funext i
  have hi := congrFun (h (i 0)) (i 1)
  rw [eq_ix2 i]
  exact hi

/-- `rows` reads only the rows of `x`: if row `r` of `x` is row `r'` of `y`, row `r` of the result is row `r'` of
    the result on `y`. (What makes a block of rows compute the rows of the whole.) -/
theorem rows_congr_row {R R' K N P : ℕ} (x : (⟨2, ![R, K]⟩ : Shape).Idx → EReal) (y : (⟨2, ![R', K]⟩ : Shape).Idx → EReal)
    (w1 : (⟨2, ![K, N]⟩ : Shape).Idx → EReal) (b1 : (⟨1, ![N]⟩ : Shape).Idx → EReal)
    (w2 : (⟨2, ![N, P]⟩ : Shape).Idx → EReal) (b2 : (⟨1, ![P]⟩ : Shape).Idx → EReal)
    (r : Fin R) (r' : Fin R') (h : row x r = row y r') (p : Fin P) :
    rows x w1 b1 w2 b2 (ix2 r p) = rows y w1 b1 w2 b2 (ix2 r' p) := by
  show twoLayer (row x r) (mat w1) (vec b1) (mat w2) (vec b2) p = twoLayer (row y r') (mat w1) (vec b1) (mat w2) (vec b2) p
  rw [h]

/-- A change of float format leaves a matrix as it was: on the extended reals it is the identity. -/
private theorem mat_truncf {K N : ℕ} {φ ψ : FTy} (w : FVec Ideal ⟨2, ![K, N]⟩ φ) (h : ψ.bits < φ.bits) :
    mat (truncf ψ w h : FVec Ideal ⟨2, ![K, N]⟩ ψ) = mat w := rfl

/-- THE BLOCK'S SPELLING: operands narrowed to a shorter float format (the identity on the extended reals), the
    weights cast to their own shape, each product accumulated into the zero splat, each bias cast to a row and
    broadcast over the rows, the rectifier a maximum with a splat zero. -/
theorem block_eq_rows {R K N P : ℕ}
    (d1 : DotDims ⟨2, ![R, K]⟩ ⟨2, ![K, N]⟩ ⟨2, ![R, N]⟩) (hd1 : d1 = DotDims.plain R K N)
    (d2 : DotDims ⟨2, ![R, N]⟩ ⟨2, ![N, P]⟩ ⟨2, ![R, P]⟩) (hd2 : d2 = DotDims.plain R N P)
    (x : FVec Ideal ⟨2, ![R, K]⟩ .f32) (w1 : FVec Ideal ⟨2, ![K, N]⟩ .f32) (b1 : FVec Ideal ⟨1, ![N]⟩ .f32)
    (w2 : FVec Ideal ⟨2, ![N, P]⟩ .f32) (b2 : FVec Ideal ⟨1, ![P]⟩ .f32)
    (hs1 : (⟨2, ![K, N]⟩ : Shape).ShapeCasts ⟨2, ![K, N]⟩) (hs2 : (⟨2, ![N, P]⟩ : Shape).ShapeCasts ⟨2, ![N, P]⟩)
    (hc1 : (⟨1, ![N]⟩ : Shape).ShapeCasts ⟨2, ![1, N]⟩) (hb1 : (⟨2, ![1, N]⟩ : Shape).Broadcasts ⟨2, ![R, N]⟩)
    (hc2 : (⟨1, ![P]⟩ : Shape).ShapeCasts ⟨2, ![1, P]⟩) (hb2 : (⟨2, ![1, P]⟩ : Shape).Broadcasts ⟨2, ![R, P]⟩)
    (hlt : FTy.bf16.bits < FTy.f32.bits) :
    addf (matmul d2 none
            (truncf .bf16
              (maximumf
                (addf (matmul d1 none (truncf .bf16 x hlt) (truncf .bf16 (shapeCast ⟨2, ![K, N]⟩ w1 hs1) hlt)
                        (constant (F := Ideal) ⟨2, ![R, N]⟩ .f32 0x00000000#32))
                      (broadcastTo ⟨2, ![R, N]⟩ (shapeCast ⟨2, ![1, N]⟩ b1 hc1) hb1))
                (broadcast ⟨2, ![R, N]⟩ (Scalar.ofBits (F := Ideal) .f32 0x00000000#32))) hlt)
            (truncf .bf16 (shapeCast ⟨2, ![N, P]⟩ w2 hs2) hlt)
            (constant (F := Ideal) ⟨2, ![R, P]⟩ .f32 0x00000000#32))
         (broadcastTo ⟨2, ![R, P]⟩ (shapeCast ⟨2, ![1, P]⟩ b2 hc2) hb2)
      = rows x w1 b1 w2 b2 := by
  refine eq_of_rows _ _ fun r => ?_
  refine (row_matmul_bias d2 hd2 none _ _ b2 hc2 hb2 r).trans ?_
  rw [row_truncf, row_max_splat, row_matmul_bias d1 hd1 none _ _ b1 hc1 hb1 r, row_truncf,
    mat_truncf, mat_truncf, mat_shapeCast_self, mat_shapeCast_self, row_rows]
  rfl

/-- THE HOST'S SPELLING: `dot_general` for each product, each bias broadcast in dimension to a row and then over the
    rows, the rectifier a maximum with a rank-zero zero broadcast in dimension. -/
theorem host_eq_rows {R K N P : ℕ}
    (d1 : DotDims ⟨2, ![R, K]⟩ ⟨2, ![K, N]⟩ ⟨2, ![R, N]⟩) (hd1 : d1 = DotDims.plain R K N)
    (d2 : DotDims ⟨2, ![R, N]⟩ ⟨2, ![N, P]⟩ ⟨2, ![R, P]⟩) (hd2 : d2 = DotDims.plain R N P)
    (x : FVec Ideal ⟨2, ![R, K]⟩ .f32) (w1 : FVec Ideal ⟨2, ![K, N]⟩ .f32) (b1 : FVec Ideal ⟨1, ![N]⟩ .f32)
    (w2 : FVec Ideal ⟨2, ![N, P]⟩ .f32) (b2 : FVec Ideal ⟨1, ![P]⟩ .f32)
    (dims0 : Fin (⟨0, ![]⟩ : Shape).rank → Fin (⟨2, ![R, N]⟩ : Shape).rank)
    (h0 : (⟨0, ![]⟩ : Shape).BroadcastsInDim ⟨2, ![R, N]⟩ dims0)
    (h11 : (⟨1, ![N]⟩ : Shape).BroadcastsInDim ⟨2, ![1, N]⟩ ![1])
    (h12 : (⟨2, ![1, N]⟩ : Shape).BroadcastsInDim ⟨2, ![R, N]⟩ ![0, 1])
    (h21 : (⟨1, ![P]⟩ : Shape).BroadcastsInDim ⟨2, ![1, P]⟩ ![1])
    (h22 : (⟨2, ![1, P]⟩ : Shape).BroadcastsInDim ⟨2, ![R, P]⟩ ![0, 1]) :
    addf (Host.dotGeneral d2 none
            (maximumf
              (addf (Host.dotGeneral d1 none x w1)
                    (broadcastInDim ⟨2, ![R, N]⟩ ![0, 1] h12 (broadcastInDim ⟨2, ![1, N]⟩ ![1] h11 b1)))
              (broadcastInDim ⟨2, ![R, N]⟩ dims0 h0 (constant (F := Ideal) ⟨0, ![]⟩ .f32 0x00000000#32)))
            w2)
         (broadcastInDim ⟨2, ![R, P]⟩ ![0, 1] h22 (broadcastInDim ⟨2, ![1, P]⟩ ![1] h21 b2))
      = rows x w1 b1 w2 b2 := by
  refine eq_of_rows _ _ fun r => ?_
  refine (row_dotGeneral_bias d2 hd2 none _ w2 b2 h21 h22 r).trans ?_
  rw [row_max_splatInDim, row_dotGeneral_bias d1 hd1 none x w1 b1 h11 h12 r, row_rows]
  rfl

end Cert.Perceptron

end
-- ==== Proof.GinNet.lean ====
/-
  The network on the extended reals, one node row at a time.

  A round takes the node features `X` and the neighbour sums `A` (both `[R, K]`) to
      row r  ↦  max (max ((X r + A r) · W1 + b1) 0 · W2 + b2) 0,
  and the head takes `X` to
      row r  ↦  max (X r · W3 + b3) 0 · W4 + b4.
  Both read row `r` of their row operands alone, so a block of consecutive rows computes exactly those rows of the
  whole. The weights are matrices `Fin K → Fin H → EReal` and the biases plain vectors `Fin H → EReal`: a bias kept as
  a one-row matrix and a bias kept as a vector give the same vector.
-/
import Idealize.ShloMosaic.Lib.ValueLayout
import Idealize.ShloMosaic.Lib.ValueIdx
import Idealize.ShloMosaic.PureOps.Ideal.Laws
import proofs.«132873_j64295660421276_1_alg».proof.Proof.LibDenseRows
import proofs.«132873_j64295660421276_1_alg».proof.Proof.LibBlockRows
import proofs.«132873_j64295660421276_1_alg».proof.Proof.LibMlpRows
import proofs.«132873_j64295660421276_1_alg».proof.Proof.LibPerceptron

noncomputable section

namespace Cert.GinNet

open Idealize.ShloMosaic Idealize.ShloMosaic.ValueIdx Cert.DenseRows Cert.LibBlockRows Cert.MlpRows Cert.Perceptron

/-- One round on every row: entry `(r, n)` is entry `n` of the perceptron of row `r` of `X` plus row `r` of `A`. -/
def round {R K H : ℕ} (X A : (⟨2, ![R, K]⟩ : Shape).Idx → EReal) (W1 : Fin K → Fin H → EReal) (b1 : Fin H → EReal)
    (W2 : Fin H → Fin H → EReal) (b2 : Fin H → EReal) : (⟨2, ![R, H]⟩ : Shape).Idx → EReal :=
  fun i => mlpRow (fun k => row X (i 0) k + row A (i 0) k) W1 b1 W2 b2 (i 1)

/-- Row `r` of a round is the perceptron of the summed row `r`. -/
theorem row_round {R K H : ℕ} (X A : (⟨2, ![R, K]⟩ : Shape).Idx → EReal) (W1 : Fin K → Fin H → EReal) (b1 : Fin H → EReal)
    (W2 : Fin H → Fin H → EReal) (b2 : Fin H → EReal) (r : Fin R) :
    row (round X A W1 b1 W2 b2) r = mlpRow (fun k => row X r k + row A r k) W1 b1 W2 b2 := rfl

/-- The head on every row: entry `(r, p)` is entry `p` of the two layers applied to row `r` of `X`. -/
def head {R K N P : ℕ} (X : (⟨2, ![R, K]⟩ : Shape).Idx → EReal) (W3 : Fin K → Fin N → EReal) (b3 : Fin N → EReal)
    (W4 : Fin N → Fin P → EReal) (b4 : Fin P → EReal) : (⟨2, ![R, P]⟩ : Shape).Idx → EReal :=
  fun i => twoLayer (row X (i 0)) W3 b3 W4 b4 (i 1)

/-- Row `r` of the head is the two layers applied to row `r`. -/
theorem row_head {R K N P : ℕ} (X : (⟨2, ![R, K]⟩ : Shape).Idx → EReal) (W3 : Fin K → Fin N → EReal) (b3 : Fin N → EReal)
    (W4 : Fin N → Fin P → EReal) (b4 : Fin P → EReal) (r : Fin R) :
    row (head X W3 b3 W4 b4) r = twoLayer (row X r) W3 b3 W4 b4 := rfl

/-- A round reads rows only: where row `r` of a block pair is row `r'` of the whole pair, entry `(r, n)` of the round on
    the block is entry `(r', n)` of the round on the whole. -/
theorem round_congr_row {R R' K H : ℕ} (x a : (⟨2, ![R, K]⟩ : Shape).Idx → EReal) (X A : (⟨2, ![R', K]⟩ : Shape).Idx → EReal)
    (W1 : Fin K → Fin H → EReal) (b1 : Fin H → EReal) (W2 : Fin H → Fin H → EReal) (b2 : Fin H → EReal)
    (r : Fin R) (r' : Fin R') (hx : row x r = row X r') (ha : row a r = row A r') (n : Fin H) :
    mlpRow (fun k => row x r k + row a r k) W1 b1 W2 b2 n = round X A W1 b1 W2 b2 (ix2 r' n) := by
  show _ = mlpRow (fun k => row X r' k + row A r' k) W1 b1 W2 b2 n
  rw [hx, ha]

/-- The head reads rows only. -/
theorem head_congr_row {R R' K N P : ℕ} (x : (⟨2, ![R, K]⟩ : Shape).Idx → EReal) (X : (⟨2, ![R', K]⟩ : Shape).Idx → EReal)
    (W3 : Fin K → Fin N → EReal) (b3 : Fin N → EReal) (W4 : Fin N → Fin P → EReal) (b4 : Fin P → EReal)
    (r : Fin R) (r' : Fin R') (hx : row x r = row X r') (p : Fin P) :
    twoLayer (row x r) W3 b3 W4 b4 p = head X W3 b3 W4 b4 (ix2 r' p) := by
  show _ = twoLayer (row X r') W3 b3 W4 b4 p
  rw [hx]

/-! ## A block of rows, as the body spells it -/

/-- Row `r` of a round's block: the second operand and the one-row biases pass through casts to their own shapes,
    the operands of each product are narrowed (the identity on the extended reals), each product is accumulated into
    zeros, each rectifier is a maximum with a splat zero. -/
theorem round_block_row {R K H : ℕ} (d1 : DotDims ⟨2, ![R, K]⟩ ⟨2, ![K, H]⟩ ⟨2, ![R, H]⟩) (hd1 : d1 = DotDims.plain R K H)
    (d2 : DotDims ⟨2, ![R, H]⟩ ⟨2, ![H, H]⟩ ⟨2, ![R, H]⟩) (hd2 : d2 = DotDims.plain R H H)
    (x a : FVec Ideal ⟨2, ![R, K]⟩ .f32) (w1 : FVec Ideal ⟨2, ![K, H]⟩ .f32) (b1 : FVec Ideal ⟨2, ![1, H]⟩ .f32)
    (w2 : FVec Ideal ⟨2, ![H, H]⟩ .f32) (b2 : FVec Ideal ⟨2, ![1, H]⟩ .f32)
    (hsx : (⟨2, ![R, K]⟩ : Shape).ShapeCasts ⟨2, ![R, K]⟩) (hsb : (⟨2, ![1, H]⟩ : Shape).ShapeCasts ⟨2, ![1, H]⟩)
    (hlt : FTy.bf16.bits < FTy.f32.bits) (hb : (⟨2, ![1, H]⟩ : Shape).Broadcasts ⟨2, ![R, H]⟩) (r : Fin R) :
    row (maximumf (addf (matmul d2 none
        (truncf .bf16 (maximumf (addf (matmul d1 none (truncf .bf16 (addf x (shapeCast ⟨2, ![R, K]⟩ a hsx)) hlt) (truncf .bf16 w1 hlt)
            (constant (F := Ideal) ⟨2, ![R, H]⟩ .f32 0x00000000#32)) (broadcastTo ⟨2, ![R, H]⟩ (shapeCast ⟨2, ![1, H]⟩ b1 hsb) hb))
          (broadcast ⟨2, ![R, H]⟩ (Scalar.ofBits (F := Ideal) .f32 0x00000000#32))) hlt)
        (truncf .bf16 w2 hlt) (constant (F := Ideal) ⟨2, ![R, H]⟩ .f32 0x00000000#32)) (broadcastTo ⟨2, ![R, H]⟩ (shapeCast ⟨2, ![1, H]⟩ b2 hsb) hb))
      (broadcast ⟨2, ![R, H]⟩ (Scalar.ofBits (F := Ideal) .f32 0x00000000#32))) r
      = mlpRow (fun k => row x r k + row a r k) (mat w1) (row b1 (0 : Fin 1)) (mat w2) (row b2 (0 : Fin 1)) := by
  rw [shapeCast_self, shapeCast_self, shapeCast_self]
  exact block_row d1 hd1 d2 hd2 x a w1 b1 w2 b2 hlt hb r

/-- Row `r` of the head's block, spelt the same way with one rectifier. -/
theorem head_block_row {R K N P : ℕ} (d1 : DotDims ⟨2, ![R, K]⟩ ⟨2, ![K, N]⟩ ⟨2, ![R, N]⟩) (hd1 : d1 = DotDims.plain R K N)
    (d2 : DotDims ⟨2, ![R, N]⟩ ⟨2, ![N, P]⟩ ⟨2, ![R, P]⟩) (hd2 : d2 = DotDims.plain R N P)
    (x : FVec Ideal ⟨2, ![R, K]⟩ .f32) (w1 : FVec Ideal ⟨2, ![K, N]⟩ .f32) (b1 : FVec Ideal ⟨2, ![1, N]⟩ .f32)
    (w2 : FVec Ideal ⟨2, ![N, P]⟩ .f32) (b2 : FVec Ideal ⟨2, ![1, P]⟩ .f32)
    (hsx : (⟨2, ![R, K]⟩ : Shape).ShapeCasts ⟨2, ![R, K]⟩) (hsb1 : (⟨2, ![1, N]⟩ : Shape).ShapeCasts ⟨2, ![1, N]⟩)
    (hsb2 : (⟨2, ![1, P]⟩ : Shape).ShapeCasts ⟨2, ![1, P]⟩)
    (hlt : FTy.bf16.bits < FTy.f32.bits) (hb1 : (⟨2, ![1, N]⟩ : Shape).Broadcasts ⟨2, ![R, N]⟩)
    (hb2 : (⟨2, ![1, P]⟩ : Shape).Broadcasts ⟨2, ![R, P]⟩) (r : Fin R) :
    row (addf (matmul d2 none
        (truncf .bf16 (maximumf (addf (matmul d1 none (truncf .bf16 (shapeCast ⟨2, ![R, K]⟩ x hsx) hlt) (truncf .bf16 w1 hlt)
            (constant (F := Ideal) ⟨2, ![R, N]⟩ .f32 0x00000000#32)) (broadcastTo ⟨2, ![R, N]⟩ (shapeCast ⟨2, ![1, N]⟩ b1 hsb1) hb1))
          (broadcast ⟨2, ![R, N]⟩ (Scalar.ofBits (F := Ideal) .f32 0x00000000#32))) hlt)
        (truncf .bf16 w2 hlt) (constant (F := Ideal) ⟨2, ![R, P]⟩ .f32 0x00000000#32)) (broadcastTo ⟨2, ![R, P]⟩ (shapeCast ⟨2, ![1, P]⟩ b2 hsb2) hb2)) r
      = twoLayer (row x r) (mat w1) (row b1 (0 : Fin 1)) (mat w2) (row b2 (0 : Fin 1)) := by
  rw [shapeCast_self, shapeCast_self, shapeCast_self]
  rw [row_matmul_rowbias d2 hd2, row_truncf, row_max_splat, row_matmul_rowbias d1 hd1, row_truncf]
  rfl

/-- A vector cast to a one-row matrix has that vector as its row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.GinNet

end
-- ==== Proof.Net.lean ====
/-
  The whole network as one function of the argument arrays, on the extended reals.

  The neighbour sum of a feature array `X` along the edge list `E` gathers, for every edge, the feature row of
  its source node (a negative source index wraps around by the number of nodes) and adds the gathered rows into
  a zero array at the edge's target node. It is the same chain of operations wherever it is used, and it is never
  opened here: it enters every statement as this one function `neighbourSum E` of the features.

  Two rounds — each the perceptron of a node's features plus its neighbour sum — and the head give the result:
      h₁ = round x (neighbourSum E x),   h₂ = round h₁ (neighbourSum E h₁),   out = head h₂  (one column, read as a vector).
-/
import proofs.«132873_j64295660421276_1_alg».proof.Proof.Gen.KernelIdeal
import proofs.«132873_j64295660421276_1_alg».proof.Proof.GinNet

noncomputable section

namespace Cert.GinNet

open Idealize.ShloMosaic Idealize.ShloMosaic.ValueIdx Cert.DenseRows Cert.KernelIdeal Cert.KernelIdeal.Facts₀

/-- The source node of every edge: row 0 of the edge list. -/
def sources (E : (⟨S2x800000, .i32⟩ : BufTy).Contents (Elt Ideal)) : (⟨S800000, .i32⟩ : BufTy).Contents (Elt Ideal) :=
  shapeCast S800000 (extractStridedSlice S1x800000 ![0, 0] E slices_S2x800000_S1x800000_0_0) shapeCasts_S1x800000_S800000

/-- The target node of every edge: row 1 of the edge list. -/
def targets (E : (⟨S2x800000, .i32⟩ : BufTy).Contents (Elt Ideal)) : (⟨S800000, .i32⟩ : BufTy).Contents (Elt Ideal) :=
  shapeCast S800000 (extractStridedSlice S1x800000 ![1, 0] E slices_S2x800000_S1x800000_1_0) shapeCasts_S1x800000_S800000

/-- The neighbour sum: the source rows gathered (negative indices wrapped by the node count) and added into zeros at
    the target rows. -/
def neighbourSum (E : (⟨S2x800000, .i32⟩ : BufTy).Contents (Elt Ideal)) (X : FVec Ideal S50000x128 .f32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (targets E))
    (Host.gather gather_S50000x128_S800000x1_S800000x128_1_0_n_n_0_1_1128 X
      (broadcastInDim S800000x1 ![0] bcast_S800000_S800000x1_0
        (select (cmpi .slt (sources E) (broadcastInDim S800000 ![] bcast_S_S800000 (constantI S_ 32 0#32)))
          (addi (sources E) (broadcastInDim S800000 ![] bcast_S_S800000 (constantI S_ 32 50000#32)))
          (sources E))))

/-- One graph convolution: the round of the features and their neighbour sum. -/
def conv (E : (⟨S2x800000, .i32⟩ : BufTy).Contents (Elt Ideal)) (X : FVec Ideal S50000x128 .f32)
    (wa : FVec Ideal S128x128 .f32) (ba : FVec Ideal S128 .f32) (wb : FVec Ideal S128x128 .f32) (bb : FVec Ideal S128 .f32) :
    FVec Ideal S50000x128 .f32 :=
  round X (neighbourSum E X) (mat wa) (vec ba) (mat wb) (vec bb)

/-- The network: two convolutions, the head, and its single column read as a vector. -/
def net (x : FVec Ideal S50000x128 .f32) (E : (⟨S2x800000, .i32⟩ : BufTy).Contents (Elt Ideal))
    (w1a : FVec Ideal S128x128 .f32) (b1a : FVec Ideal S128 .f32) (w1b : FVec Ideal S128x128 .f32) (b1b : FVec Ideal S128 .f32)
    (w2a : FVec Ideal S128x128 .f32) (b2a : FVec Ideal S128 .f32) (w2b : FVec Ideal S128x128 .f32) (b2b : FVec Ideal S128 .f32)
    (w3 : FVec Ideal S128x64 .f32) (b3 : FVec Ideal S64 .f32) (w4 : FVec Ideal S64x1 .f32) (b4 : FVec Ideal S1 .f32) :
    FVec Ideal S50000 .f32 :=
  shapeCast S50000
    (head (conv E (conv E x w1a b1a w1b b1b) w2a b2a w2b b2b) (mat w3) (vec b3) (mat w4) (vec b4) : FVec Ideal S50000x1 .f32)
    shapeCasts_S50000x1_S50000

end Cert.GinNet

end
-- ==== Proof.RoundOne.lean ====
/-
  The first round's region: the result array after the last point is the round of the whole arrays, entry by entry.

  The region runs ten points over blocks of 5000 consecutive rows. At point `t` the two row operands and the result are
  at rows `5000 t … 5000 t + 4999` of their `[50000, 128]` arrays, the two weight matrices and the two one-row biases
  are whole at every point. The body's result on a block, read at row `p`, is the perceptron of the summed row `p`
  of the two row blocks, which is row `5000 t + p` of the round on the whole arrays; so each point writes back its
  block of that one function of the whole arrays, the ten blocks cover the result array, and the array ends holding it.
-/
import proofs.«132873_j64295660421276_1_alg».proof.Proof.Gen.KernelIdeal.Frame
import proofs.«132873_j64295660421276_1_alg».proof.Proof.GinNet
import Idealize.ShloMosaic.Lib.Pipeline.Value
import Idealize.ShloMosaic.Lib.ValueIdx
import Idealize.ShloMosaic.Lib.ValueLayout

set_option maxRecDepth 16384

noncomputable section

namespace Cert.KernelIdeal.RoundOne

open Idealize.ShloMosaic Idealize.ShloMosaic.TcCoe Idealize.SL.Sem Idealize.ShloMosaic.ValueIdx
open Cert.KernelIdeal Cert.KernelIdeal.Gen Cert.DenseRows Cert.MlpRows Cert.Perceptron Cert.GinNet
open Idealize.ShloMosaic.Pipeline (Dat Cfg Window)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The index maps over the grid: the two row operands and the result sit at block `(t, 0)` at point `t`, the weights and
    the biases at block `(0, 0)` at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The grid has ten points. -/
theorem point_lt (t : Fin cfg0.N) : t.val < 10 :=
  Nat.lt_of_lt_of_eq t.isLt (N_0 : cfg0.N = 10)

/-- Entry `(p, q)` of the body's result on a block: where row `p` of the two row operands is row `r'` of the whole
    arrays and the weights and biases are the whole ones, it is entry `(r', q)` of the round on the whole arrays. -/
theorem point_eq (x a : Vec Ideal S5000x128 .f32) (w1 : Vec Ideal S128x128 .f32) (b1 : Vec Ideal S1x128 .f32)
    (w2 : Vec Ideal S128x128 .f32) (b2 : Vec Ideal S1x128 .f32)
    (X A : S50000x128.Idx → EReal) (W1 : Fin 128 → Fin 128 → EReal) (B1 : Fin 128 → EReal)
    (W2 : Fin 128 → Fin 128 → EReal) (B2 : Fin 128 → EReal)
    (p : Fin 5000) (r' : Fin 50000) (hx : row x p = row X r') (ha : row a p = row A r')
    (hw1 : mat w1 = W1) (hb1 : row b1 (0 : Fin 1) = B1) (hw2 : mat w2 = W2) (hb2 : row b2 (0 : Fin 1) = B2) (q : Fin 128) :
    k0_pay1 x a w1 b1 w2 b2 (ix2 p q) = round X A W1 B1 W2 B2 (ix2 r' q) := by
  subst hw1 hb1 hw2 hb2
  unfold k0_pay1
  refine (congrFun (round_block_row dot_S5000x128_S128x128_S5000x128_1_0_0_1_n_n rfl dot_S5000x128_S128x128_S5000x128_1_0_0_1_n_n rfl x a w1 b1 w2 b2
    shapeCasts_S5000x128_S5000x128 shapeCasts_S1x128_S1x128 bitsLt_bf16_f32 broadcasts_S1x128_S5000x128 p) q).trans ?_
  exact round_congr_row x a X A (mat w1) (row b1 (0 : Fin 1)) (mat w2) (row b2 (0 : Fin 1)) p r' hx ha q

/-! ## The blocks as rows of the arrays -/

/-- Row `p` of the first row operand's block at point `t` is row `5000 t + p` of its array. -/
theorem blk0_row (c : Dev nD) (t : Fin cfg0.N) (p : Fin 5000) (h : 5000 * t.val + p.val < 50000) :
    row (iblk0 (F := Ideal) V c 0 t : Vec Ideal S5000x128 .f32) p = row (V c main_arg0 : S50000x128.Idx → EReal) ⟨5000 * t.val + p.val, h⟩ := by
  obtain ⟨e0, e1, -⟩ := idx_facts t
  funext k
  show V c main_arg0 (((cfg0.win 0).blk t).view.emb (ix2 p k)) = V c main_arg0 (ix2 ⟨5000 * t.val + p.val, h⟩ k)
  congr 1
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- Row `p` of the second row operand's block at point `t` is row `5000 t + p` of its array. -/
theorem blk1_row (c : Dev nD) (t : Fin cfg0.N) (p : Fin 5000) (h : 5000 * t.val + p.val < 50000) :
    row (iblk0 (F := Ideal) V c 1 t : Vec Ideal S5000x128 .f32) p = row (V c main_v13 : S50000x128.Idx → EReal) ⟨5000 * t.val + p.val, h⟩ := by
  obtain ⟨-, -, e0, e1, -⟩ := idx_facts t
  funext k
  show V c main_v13 (((cfg0.win 1).blk t).view.emb (ix2 p k)) = V c main_v13 (ix2 ⟨5000 * t.val + p.val, h⟩ k)
  congr 1
  funext a; apply Fin.ext
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight's block at every point is the whole matrix. -/
theorem blk2_mat (c : Dev nD) (t : Fin cfg0.N) :
    mat (iblk0 (F := Ideal) V c 2 t : Vec Ideal S128x128 .f32) = mat (V c main_arg2 : S128x128.Idx → EReal) := by
  obtain ⟨-, -, -, -, e0, e1, -⟩ := idx_facts t
  funext k n
  show V c main_arg2 (((cfg0.win 2).blk t).view.emb (ix2 k n)) = V c main_arg2 (ix2 k n)
  congr 1
  funext a; apply Fin.ext
  match a with
  | ⟨0, _⟩ => show win0_2.index t (0 : Fin 2) * 128 + 1 * k.val = k.val; omega
  | ⟨1, _⟩ => show win0_2.index t (1 : Fin 2) * 128 + 1 * n.val = n.val; omega

/-- The first bias's block at every point is the whole one-row array. -/
theorem blk3_row (c : Dev nD) (t : Fin cfg0.N) :
    row (iblk0 (F := Ideal) V c 3 t : Vec Ideal S1x128 .f32) (0 : Fin 1) = row (V c main_v14 : S1x128.Idx → EReal) (0 : Fin 1) := by
  obtain ⟨-, -, -, -, -, -, e0, e1, -⟩ := idx_facts t
  funext n
  show V c main_v14 (((cfg0.win 3).blk t).view.emb (ix2 (0 : Fin 1) n)) = V c main_v14 (ix2 (0 : Fin 1) n)
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 128 + 1 * n.val = n.val; omega

/-- The second weight's block at every point is the whole matrix. -/
theorem blk4_mat (c : Dev nD) (t : Fin cfg0.N) :
    mat (iblk0 (F := Ideal) V c 4 t : Vec Ideal S128x128 .f32) = mat (V c main_arg4 : S128x128.Idx → EReal) := by
  obtain ⟨-, -, -, -, -, -, -, -, e0, e1, -⟩ := idx_facts t
  funext k n
  show V c main_arg4 (((cfg0.win 4).blk t).view.emb (ix2 k n)) = V c main_arg4 (ix2 k n)
  congr 1
  funext a; apply Fin.ext
  match a with
  | ⟨0, _⟩ => show win0_4.index t (0 : Fin 2) * 128 + 1 * k.val = k.val; omega
  | ⟨1, _⟩ => show win0_4.index t (1 : Fin 2) * 128 + 1 * n.val = n.val; omega

/-- The second bias's block at every point is the whole one-row array. -/
theorem blk5_row (c : Dev nD) (t : Fin cfg0.N) :
    row (iblk0 (F := Ideal) V c 5 t : Vec Ideal S1x128 .f32) (0 : Fin 1) = row (V c main_v15 : S1x128.Idx → EReal) (0 : Fin 1) := by
  obtain ⟨-, -, -, -, -, -, -, -, -, -, e0, e1, -⟩ := idx_facts t
  funext n
  show V c main_v15 (((cfg0.win 5).blk t).view.emb (ix2 (0 : Fin 1) n)) = V c main_v15 (ix2 (0 : Fin 1) n)
  congr 1
  funext a; apply Fin.ext
  match a with
  | ⟨0, _⟩ => show win0_5.index t (0 : Fin 2) * 1 + 1 * (0 : Fin 1).val = (0 : Fin 1).val; omega
  | ⟨1, _⟩ => show win0_5.index t (1 : Fin 2) * 128 + 1 * n.val = n.val; omega

/-! ## What a point writes back, and the array after the last point -/

/-- The round on the whole arrays as the region finds them. -/
abbrev G (c : Dev nD) : S50000x128.Idx → EReal :=
  round (V c main_arg0) (V c main_v13) (mat (V c main_arg2)) (row (V c main_v14) (0 : Fin 1)) (mat (V c main_arg4)) (row (V c main_v15) (0 : Fin 1))

/-- What point `t` writes back is block `t` of the round on the whole arrays. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S1x128) hz]
  have ht := point_lt t
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg0.win 6).blk t).view.emb (ix2 p q) = (ix2 (⟨5000 * t.val + p.val, hr⟩ : Fin 50000) q : S50000x128.Idx) := by
    funext a; apply Fin.ext
    match a with
    | ⟨0, _⟩ => show win0_6.index t (0 : Fin 2) * 5000 + 1 * p.val = 5000 * t.val + p.val; omega
    | ⟨1, _⟩ => show win0_6.index t (1 : Fin 2) * 128 + 1 * q.val = q.val; omega
  show k0_pay1 (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (ix2 p q)
    = G V c (((cfg0.win 6).blk t).view.emb (ix2 p q))
  rw [hemb]
  exact point_eq (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t)
    (V c main_arg0) (V c main_v13) (mat (V c main_arg2)) (row (V c main_v14) (0 : Fin 1)) (mat (V c main_arg4)) (row (V c main_v15) (0 : Fin 1))
    p ⟨5000 * t.val + p.val, hr⟩ (blk0_row V c t p hr) (blk1_row V c t p hr) (blk2_mat V c t) (blk3_row V c t) (blk4_mat V c t) (blk5_row V c t) q

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Every row of the result array is in some point's block: row `r` in the block of point `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_6 _, ?_⟩
  rw [mem_blk]
  obtain ⟨-, -, -, -, -, -, -, -, -, -, -, -, e0, e1⟩ := idx_facts ⟨(i 0).val / 5000, hN⟩
  have e0' : win0_6.index ⟨(i 0).val / 5000, hN⟩ (0 : Fin 2) = (i 0).val / 5000 := e0
  intro a
  match a with
  | ⟨0, _⟩ => show win0_6.index ⟨(i 0).val / 5000, hN⟩ (0 : Fin 2) * 5000 ≤ (i 0).val ∧ (i 0).val < win0_6.index ⟨(i 0).val / 5000, hN⟩ (0 : Fin 2) * 5000 + 5000; omega
  | ⟨1, _⟩ => show win0_6.index ⟨(i 0).val / 5000, hN⟩ (1 : Fin 2) * 128 ≤ (i 1).val ∧ (i 1).val < win0_6.index ⟨(i 0).val / 5000, hN⟩ (1 : Fin 2) * 128 + 128; omega

/-- The result array after the last point is the round on the whole arrays as the region finds them. -/
theorem final (c : Dev nD) :
    (dat0 (F := Ideal) V c).arrAt 6 cfg0.N
      = round (V c main_arg0) (V c main_v13) (mat (V c main_arg2)) (row (V c main_v14) (0 : Fin 1)) (mat (V c main_arg4)) (row (V c main_v15) (0 : Fin 1)) :=
  (dat0 (F := Ideal) V c).arrAt_eq_of_cover 6 (G V c) (fun t _ => flushed_eq V c t) cover

end Cert.KernelIdeal.RoundOne

end
-- ==== Proof.RoundTwo.lean ====
/-
  The second round's region: the result array after the last point is the round of the whole arrays, entry by entry.

  The region runs ten points over blocks of 5000 consecutive rows. At point `t` the two row operands and the result are
  at rows `5000 t … 5000 t + 4999` of their `[50000, 128]` arrays, the two weight matrices and the two one-row biases
  are whole at every point. The body's result on a block, read at row `p`, is the perceptron of the summed row `p`
  of the two row blocks, which is row `5000 t + p` of the round on the whole arrays; so each point writes back its
  block of that one function of the whole arrays, the ten blocks cover the result array, and the array ends holding it.
-/
import proofs.«132873_j64295660421276_1_alg».proof.Proof.Gen.KernelIdeal.Frame
import proofs.«132873_j64295660421276_1_alg».proof.Proof.GinNet
import Idealize.ShloMosaic.Lib.Pipeline.Value
import Idealize.ShloMosaic.Lib.ValueIdx
import Idealize.ShloMosaic.Lib.ValueLayout

set_option maxRecDepth 16384

noncomputable section

namespace Cert.KernelIdeal.RoundTwo

open Idealize.ShloMosaic Idealize.ShloMosaic.TcCoe Idealize.SL.Sem Idealize.ShloMosaic.ValueIdx
open Cert.KernelIdeal Cert.KernelIdeal.Gen Cert.DenseRows Cert.MlpRows Cert.Perceptron Cert.GinNet
open Idealize.ShloMosaic.Pipeline (Dat Cfg Window)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The index maps over the grid: the two row operands and the result sit at block `(t, 0)` at point `t`, the weights and
    the biases at block `(0, 0)` at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has ten points. -/
theorem point_lt (t : Fin cfg1.N) : t.val < 10 :=
  Nat.lt_of_lt_of_eq t.isLt (N_1 : cfg1.N = 10)

/-- Entry `(p, q)` of the body's result on a block: where row `p` of the two row operands is row `r'` of the whole
    arrays and the weights and biases are the whole ones, it is entry `(r', q)` of the round on the whole arrays. -/
theorem point_eq (x a : Vec Ideal S5000x128 .f32) (w1 : Vec Ideal S128x128 .f32) (b1 : Vec Ideal S1x128 .f32)
    (w2 : Vec Ideal S128x128 .f32) (b2 : Vec Ideal S1x128 .f32)
    (X A : S50000x128.Idx → EReal) (W1 : Fin 128 → Fin 128 → EReal) (B1 : Fin 128 → EReal)
    (W2 : Fin 128 → Fin 128 → EReal) (B2 : Fin 128 → EReal)
    (p : Fin 5000) (r' : Fin 50000) (hx : row x p = row X r') (ha : row a p = row A r')
    (hw1 : mat w1 = W1) (hb1 : row b1 (0 : Fin 1) = B1) (hw2 : mat w2 = W2) (hb2 : row b2 (0 : Fin 1) = B2) (q : Fin 128) :
    k1_pay1 x a w1 b1 w2 b2 (ix2 p q) = round X A W1 B1 W2 B2 (ix2 r' q) := by
  subst hw1 hb1 hw2 hb2
  unfold k1_pay1
  refine (congrFun (round_block_row dot_S5000x128_S128x128_S5000x128_1_0_0_1_n_n rfl dot_S5000x128_S128x128_S5000x128_1_0_0_1_n_n rfl
    (shapeCast S5000x128 x shapeCasts_S5000x128_S5000x128) a w1 b1 w2 b2
    shapeCasts_S5000x128_S5000x128 shapeCasts_S1x128_S1x128 bitsLt_bf16_f32 broadcasts_S1x128_S5000x128 p) q).trans ?_
  rw [shapeCast_self]
  exact round_congr_row x a X A (mat w1) (row b1 (0 : Fin 1)) (mat w2) (row b2 (0 : Fin 1)) p r' hx ha q

/-! ## The blocks as rows of the arrays -/

/-- Row `p` of the first row operand's block at point `t` is row `5000 t + p` of its array. -/
theorem blk0_row (c : Dev nD) (t : Fin cfg1.N) (p : Fin 5000) (h : 5000 * t.val + p.val < 50000) :
    row (iblk1 (F := Ideal) V c 0 t : Vec Ideal S5000x128 .f32) p = row (V c main_v16 : S50000x128.Idx → EReal) ⟨5000 * t.val + p.val, h⟩ := by
  obtain ⟨e0, e1, -⟩ := idx_facts t
  funext k
  show V c main_v16 (((cfg1.win 0).blk t).view.emb (ix2 p k)) = V c main_v16 (ix2 ⟨5000 * t.val + p.val, h⟩ k)
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Row `p` of the second row operand's block at point `t` is row `5000 t + p` of its array. -/
theorem blk1_row (c : Dev nD) (t : Fin cfg1.N) (p : Fin 5000) (h : 5000 * t.val + p.val < 50000) :
    row (iblk1 (F := Ideal) V c 1 t : Vec Ideal S5000x128 .f32) p = row (V c main_v26 : S50000x128.Idx → EReal) ⟨5000 * t.val + p.val, h⟩ := by
  obtain ⟨-, -, e0, e1, -⟩ := idx_facts t
  funext k
  show V c main_v26 (((cfg1.win 1).blk t).view.emb (ix2 p k)) = V c main_v26 (ix2 ⟨5000 * t.val + p.val, h⟩ k)
  congr 1
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first weight's block at every point is the whole matrix. -/
theorem blk2_mat (c : Dev nD) (t : Fin cfg1.N) :
    mat (iblk1 (F := Ideal) V c 2 t : Vec Ideal S128x128 .f32) = mat (V c main_arg6 : S128x128.Idx → EReal) := by
  obtain ⟨-, -, -, -, e0, e1, -⟩ := idx_facts t
  funext k n
  show V c main_arg6 (((cfg1.win 2).blk t).view.emb (ix2 k n)) = V c main_arg6 (ix2 k n)
  congr 1
  funext a; apply Fin.ext
  match a with
  | ⟨0, _⟩ => show win1_2.index t (0 : Fin 2) * 128 + 1 * k.val = k.val; omega
  | ⟨1, _⟩ => show win1_2.index t (1 : Fin 2) * 128 + 1 * n.val = n.val; omega

/-- The first bias's block at every point is the whole one-row array. -/
theorem blk3_row (c : Dev nD) (t : Fin cfg1.N) :
    row (iblk1 (F := Ideal) V c 3 t : Vec Ideal S1x128 .f32) (0 : Fin 1) = row (V c main_v27 : S1x128.Idx → EReal) (0 : Fin 1) := by
  obtain ⟨-, -, -, -, -, -, e0, e1, -⟩ := idx_facts t
  funext n
  show V c main_v27 (((cfg1.win 3).blk t).view.emb (ix2 (0 : Fin 1) n)) = V c main_v27 (ix2 (0 : Fin 1) n)
  congr 1
  funext a; apply Fin.ext
  match a with
  | ⟨0, _⟩ => show win1_3.index t (0 : Fin 2) * 1 + 1 * (0 : Fin 1).val = (0 : Fin 1).val; omega
  | ⟨1, _⟩ => show win1_3.index t (1 : Fin 2) * 128 + 1 * n.val = n.val; omega

/-- The second weight's block at every point is the whole matrix. -/
theorem blk4_mat (c : Dev nD) (t : Fin cfg1.N) :
    mat (iblk1 (F := Ideal) V c 4 t : Vec Ideal S128x128 .f32) = mat (V c main_arg8 : S128x128.Idx → EReal) := by
  obtain ⟨-, -, -, -, -, -, -, -, e0, e1, -⟩ := idx_facts t
  funext k n
  show V c main_arg8 (((cfg1.win 4).blk t).view.emb (ix2 k n)) = V c main_arg8 (ix2 k n)
  congr 1
  funext a; apply Fin.ext
  match a with
  | ⟨0, _⟩ => show win1_4.index t (0 : Fin 2) * 128 + 1 * k.val = k.val; omega
  | ⟨1, _⟩ => show win1_4.index t (1 : Fin 2) * 128 + 1 * n.val = n.val; omega

/-- The second bias's block at every point is the whole one-row array. -/
theorem blk5_row (c : Dev nD) (t : Fin cfg1.N) :
    row (iblk1 (F := Ideal) V c 5 t : Vec Ideal S1x128 .f32) (0 : Fin 1) = row (V c main_v28 : S1x128.Idx → EReal) (0 : Fin 1) := by
  obtain ⟨-, -, -, -, -, -, -, -, -, -, e0, e1, -⟩ := idx_facts t
  funext n
  show V c main_v28 (((cfg1.win 5).blk t).view.emb (ix2 (0 : Fin 1) n)) = V c main_v28 (ix2 (0 : Fin 1) n)
  congr 1
  funext a; apply Fin.ext
  match a with
  | ⟨0, _⟩ => show win1_5.index t (0 : Fin 2) * 1 + 1 * (0 : Fin 1).val = (0 : Fin 1).val; omega
  | ⟨1, _⟩ => show win1_5.index t (1 : Fin 2) * 128 + 1 * n.val = n.val; omega

/-! ## What a point writes back, and the array after the last point -/

/-- The round on the whole arrays as the region finds them. -/
abbrev G (c : Dev nD) : S50000x128.Idx → EReal :=
  round (V c main_v16) (V c main_v26) (mat (V c main_arg6)) (row (V c main_v27) (0 : Fin 1)) (mat (V c main_arg8)) (row (V c main_v28) (0 : Fin 1))

/-- What point `t` writes back is block `t` of the round on the whole arrays. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz, View.ld_unit_zero (S := S1x128) hz]
  have ht := point_lt t
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg1.win 6).blk t).view.emb (ix2 p q) = (ix2 (⟨5000 * t.val + p.val, hr⟩ : Fin 50000) q : S50000x128.Idx) := by
    funext a; apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  show k1_pay1 (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (ix2 p q)
    = G V c (((cfg1.win 6).blk t).view.emb (ix2 p q))
  rw [hemb]
  exact point_eq (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t)
    (V c main_v16) (V c main_v26) (mat (V c main_arg6)) (row (V c main_v27) (0 : Fin 1)) (mat (V c main_arg8)) (row (V c main_v28) (0 : Fin 1))
    p ⟨5000 * t.val + p.val, hr⟩ (blk0_row V c t p hr) (blk1_row V c t p hr) (blk2_mat V c t) (blk3_row V c t) (blk4_mat V c t) (blk5_row V c t) q

/-- An index of the result array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Every row of the result array is in some point's block: row `r` in the block of point `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_6 _, ?_⟩
  rw [mem_blk]
  obtain ⟨-, -, -, -, -, -, -, -, -, -, -, -, e0, e1⟩ := idx_facts ⟨(i 0).val / 5000, hN⟩
  have e0' : win1_6.index ⟨(i 0).val / 5000, hN⟩ (0 : Fin 2) = (i 0).val / 5000 := e0
  intro a
  match a with
  | ⟨0, _⟩ => show win1_6.index ⟨(i 0).val / 5000, hN⟩ (0 : Fin 2) * 5000 ≤ (i 0).val ∧ (i 0).val < win1_6.index ⟨(i 0).val / 5000, hN⟩ (0 : Fin 2) * 5000 + 5000; omega
  | ⟨1, _⟩ => show win1_6.index ⟨(i 0).val / 5000, hN⟩ (1 : Fin 2) * 128 ≤ (i 1).val ∧ (i 1).val < win1_6.index ⟨(i 0).val / 5000, hN⟩ (1 : Fin 2) * 128 + 128; omega

/-- The result array after the last point is the round on the whole arrays as the region finds them. -/
theorem final (c : Dev nD) :
    (dat1 (F := Ideal) V c).arrAt 6 cfg1.N
      = round (V c main_v16) (V c main_v26) (mat (V c main_arg6)) (row (V c main_v27) (0 : Fin 1)) (mat (V c main_arg8)) (row (V c main_v28) (0 : Fin 1)) :=
  (dat1 (F := Ideal) V c).arrAt_eq_of_cover 6 (G V c) (fun t _ => flushed_eq V c t) cover

end Cert.KernelIdeal.RoundTwo

end
-- ==== Proof.HeadRows.lean ====
/-
  The head region, from blocks to the array, on the extended reals.

  The region's grid has 10 points. Point `t` reads rows `5000 t … 5000 t + 4999` of the `[50000, 128]` feature array,
  the whole `[128, 64]` and `[64, 1]` weight arrays and the whole one-row `[1, 64]` and `[1, 1]` bias arrays, and writes rows
  `5000 t … 5000 t + 4999` of the `[50000, 1]` result. The body computes, on its block of rows,
      row p  ↦  max (x p · W3 + b3) 0 · W4 + b4,
  which reads row `p` of the block alone; row `p` of the block at point `t` is row `5000 t + p` of the array. So what
  point `t` writes back is block `t` of `head` of the whole arrays, the ten blocks cover the result (row `r` lies in
  the block of point `r / 5000`), and the result array ends holding `head` of the arrays the region finds.
-/
import proofs.«132873_j64295660421276_1_alg».proof.Proof.Gen.KernelIdeal.Frame
import proofs.«132873_j64295660421276_1_alg».proof.Proof.GinNet
import Idealize.ShloMosaic.Lib.Pipeline.Value
import Idealize.ShloMosaic.Lib.ValueIdx
import Idealize.ShloMosaic.Lib.ValueLayout

set_option maxRecDepth 16384

noncomputable section

namespace Cert.KernelIdeal.HeadRows

open Idealize.ShloMosaic Idealize.ShloMosaic.TcCoe Idealize.SL.Sem Idealize.ShloMosaic.ValueIdx
open Cert.KernelIdeal Cert.KernelIdeal.Gen Cert.DenseRows Cert.MlpRows Cert.Perceptron Cert.GinNet
open Idealize.ShloMosaic.Pipeline (Dat Cfg Window)

/-- The zero offsets of a whole-block rectangle. -/
theorem hz : (![0, 0] : Fin 2 → Nat) = fun _ => 0 := funext fun a => by fin_cases a <;> rfl

/-- The index maps over the grid: the feature window and the result window sit at row block `t` and column block 0
    at point `t`; the weight and bias windows sit at block (0, 0) at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's payload at entry `(p, q)` of its block: where row `p` of the feature block is row `r'` of an array `X`
    and the weight and bias blocks are the arrays `A1 … A4`, it is entry `(r', q)` of the head of those arrays. -/
theorem pay_at (x0 : Vec Ideal S5000x128 .f32) (x1 : Vec Ideal S128x64 .f32) (x2 : Vec Ideal S1x64 .f32)
    (x3 : Vec Ideal S64x1 .f32) (x4 : Vec Ideal S1x1 .f32)
    (X : S50000x128.Idx → EReal) (A1 : S128x64.Idx → EReal) (A2 : S1x64.Idx → EReal) (A3 : S64x1.Idx → EReal)
    (A4 : S1x1.Idx → EReal) (p : Fin 5000) (q : Fin 1) (r' : Fin 50000) (i : S50000x1.Idx) (hi : i = ix2 r' q)
    (hx : row x0 p = row X r') (h1 : mat x1 = mat A1) (h2 : row x2 (0 : Fin 1) = row A2 (0 : Fin 1))
    (h3 : mat x3 = mat A3) (h4 : row x4 (0 : Fin 1) = row A4 (0 : Fin 1)) :
    k2_pay1 x0 x1 x2 x3 x4 (ix2 p q)
      = head X (mat A1) (row A2 (0 : Fin 1)) (mat A3) (row A4 (0 : Fin 1)) i := by
  subst hi
  rw [← h1, ← h2, ← h3, ← h4]
  refine Eq.trans ?_ (head_congr_row x0 X (mat x1) (row x2 (0 : Fin 1)) (mat x3) (row x4 (0 : Fin 1)) p r' hx q)
  exact congrFun (head_block_row dot_S5000x128_S128x64_S5000x64_1_0_0_1_n_n rfl dot_S5000x64_S64x1_S5000x1_1_0_0_1_n_n rfl
    x0 x1 x2 x3 x4 shapeCasts_S5000x128_S5000x128 shapeCasts_S1x64_S1x64 shapeCasts_S1x1_S1x1 bitsLt_bf16_f32
    broadcasts_S1x64_S5000x64 broadcasts_S1x1_S5000x1 p) q

section Region

variable (V : (c : Dev nD) → (b : Ref sig .tc) → Buf (Elt Ideal) ((c : Thread nD τ).loc b))

/-- Row `p` of the feature block at point `t` is row `5000 t + p` of the feature array. -/
theorem blk0_row (c : Dev nD) (t : Fin cfg2.N) (p : Fin 5000) (r' : Fin 50000) (hr : r'.val = 5000 * t.val + p.val) :
    row (iblk2 (F := Ideal) V c 0 t : Vec Ideal S5000x128 .f32) p = row (V c main_v29 : S50000x128.Idx → EReal) r' := by
  obtain ⟨e0, e1, -⟩ := idx_facts t
  funext k
  show V c main_v29 (((cfg2.win 0).blk t).view.emb (ix2 p k)) = V c main_v29 (ix2 r' k)
  refine congrArg _ (funext fun a => Fin.ext ?_)
  match a with
  | ⟨0, _⟩ => show win2_0.index t (0 : Fin 2) * 5000 + 1 * p.val = r'.val; rw [e0, hr]; omega
  | ⟨1, _⟩ => show win2_0.index t (1 : Fin 2) * 128 + 1 * k.val = k.val; rw [e1]; omega

/-- The first weight block at any point is the whole first weight array. -/
theorem blk1_mat (c : Dev nD) (t : Fin cfg2.N) :
    mat (iblk2 (F := Ideal) V c 1 t : Vec Ideal S128x64 .f32) = mat (V c main_arg10 : S128x64.Idx → EReal) := by
  obtain ⟨-, -, e0, e1, -⟩ := idx_facts t
  funext k n
  show V c main_arg10 (((cfg2.win 1).blk t).view.emb (ix2 k n)) = V c main_arg10 (ix2 k n)
  refine congrArg _ (funext fun a => Fin.ext ?_)
  match a with
  | ⟨0, _⟩ => show win2_1.index t (0 : Fin 2) * 128 + 1 * k.val = k.val; rw [e0]; omega
  | ⟨1, _⟩ => show win2_1.index t (1 : Fin 2) * 64 + 1 * n.val = n.val; rw [e1]; omega

/-- The first bias block at any point is the one row of the first bias array. -/
theorem blk2_row (c : Dev nD) (t : Fin cfg2.N) :
    row (iblk2 (F := Ideal) V c 2 t : Vec Ideal S1x64 .f32) (0 : Fin 1) = row (V c main_v30 : S1x64.Idx → EReal) (0 : Fin 1) := by
  obtain ⟨-, -, -, -, e0, e1, -⟩ := idx_facts t
  funext n
  show V c main_v30 (((cfg2.win 2).blk t).view.emb (ix2 (0 : Fin 1) n)) = V c main_v30 (ix2 (0 : Fin 1) n)
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 64 + 1 * n.val = n.val; rw [e1]; omega

/-- The second weight block at any point is the whole second weight array. -/
theorem blk3_mat (c : Dev nD) (t : Fin cfg2.N) :
    mat (iblk2 (F := Ideal) V c 3 t : Vec Ideal S64x1 .f32) = mat (V c main_arg12 : S64x1.Idx → EReal) := by
  obtain ⟨-, -, -, -, -, -, e0, e1, -⟩ := idx_facts t
  funext k n
  show V c main_arg12 (((cfg2.win 3).blk t).view.emb (ix2 k n)) = V c main_arg12 (ix2 k n)
  refine congrArg _ (funext fun a => Fin.ext ?_)
  match a with
  | ⟨0, _⟩ => show win2_3.index t (0 : Fin 2) * 64 + 1 * k.val = k.val; rw [e0]; omega
  | ⟨1, _⟩ => show win2_3.index t (1 : Fin 2) * 1 + 1 * n.val = n.val; rw [e1]; omega

/-- The second bias block at any point is the one row of the second bias array. -/
theorem blk4_row (c : Dev nD) (t : Fin cfg2.N) :
    row (iblk2 (F := Ideal) V c 4 t : Vec Ideal S1x1 .f32) (0 : Fin 1) = row (V c main_v31 : S1x1.Idx → EReal) (0 : Fin 1) := by
  obtain ⟨-, -, -, -, -, -, -, -, e0, e1, -⟩ := idx_facts t
  funext n
  show V c main_v31 (((cfg2.win 4).blk t).view.emb (ix2 (0 : Fin 1) n)) = V c main_v31 (ix2 (0 : Fin 1) n)
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 1 + 1 * n.val = n.val; rw [e1]; omega

/-- The head of the arrays the region finds. -/
abbrev G (c : Dev nD) : S50000x1.Idx → EReal :=
  head (V c main_v29 : S50000x128.Idx → EReal) (mat (V c main_arg10 : S128x64.Idx → EReal))
    (row (V c main_v30 : S1x64.Idx → EReal) (0 : Fin 1)) (mat (V c main_arg12 : S64x1.Idx → EReal))
    (row (V c main_v31 : S1x1.Idx → EReal) (0 : Fin 1))

/-- What point `t` writes back is block `t` of the head of the arrays the region finds. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x64) hz, View.ld_unit_zero (S := S1x64) hz,
    View.ld_unit_zero (S := S64x1) hz, View.ld_unit_zero (S := S1x1) hz]
  obtain ⟨-, -, -, -, -, -, -, -, -, -, e0, e1⟩ := idx_facts t
  funext j
  obtain ⟨p, q, rfl⟩ : ∃ (p : Fin 5000) (q : Fin 1), j = ix2 p q := ⟨j 0, j 1, eq_ix2 j⟩
  show k2_pay1 (iblk2 (F := Ideal) V c 0 t) (iblk2 (F := Ideal) V c 1 t) (iblk2 (F := Ideal) V c 2 t) (iblk2 (F := Ideal) V c 3 t) (iblk2 (F := Ideal) V c 4 t) (ix2 p q)
    = G V c (((cfg2.win 5).blk t).view.emb (ix2 p q))
  have hN : cfg2.N = 10 := N_2
  have hr : 5000 * t.val + p.val < 50000 := by have := t.isLt; have := p.isLt; omega
  refine pay_at (iblk2 (F := Ideal) V c 0 t) (iblk2 (F := Ideal) V c 1 t) (iblk2 (F := Ideal) V c 2 t) (iblk2 (F := Ideal) V c 3 t) (iblk2 (F := Ideal) V c 4 t)
    (V c main_v29) (V c main_arg10) (V c main_v30) (V c main_arg12) (V c main_v31) p q ⟨5000 * t.val + p.val, hr⟩
    (((cfg2.win 5).blk t).view.emb (ix2 p q)) ?_ (blk0_row V c t p ⟨5000 * t.val + p.val, hr⟩ rfl) (blk1_mat V c t) (blk2_row V c t) (blk3_mat V c t) (blk4_row V c t)
  funext a; apply Fin.ext
  match a with
  | ⟨0, _⟩ => show win2_5.index t (0 : Fin 2) * 5000 + 1 * p.val = 5000 * t.val + p.val; rw [e0]; omega
  | ⟨1, _⟩ => show win2_5.index t (1 : Fin 2) * 1 + 1 * q.val = q.val; rw [e1]; omega

/-- An index of the result array is in point `t`'s block iff each coordinate is in the block's range on its axis. -/
theorem mem_blk (t : Fin cfg2.N) (i : S50000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v32).slice (win2_5.rect t)).set ↔ _
  rw [View.set_slice_whole, Rect.mem_set_unit]
  exact Iff.rfl

/-- Every index of the result array is in some point's block: row `r` is in the block of point `r / 5000`. -/
theorem cover (i : S50000x1.Idx) : ∃ t : Fin cfg2.N, (cfg2.win 5).flush t = true ∧ i ∈ ((cfg2.win 5).blk t).view.set := by
  have hN : cfg2.N = 10 := N_2
  have hi0 : (i 0).val < 50000 := (i 0).isLt
  have hi1 : (i 1).val < 1 := (i 1).isLt
  refine ⟨⟨(i 0).val / 5000, by rw [hN]; omega⟩, flush2_5 _, ?_⟩
  rw [mem_blk]
  obtain ⟨-, -, -, -, -, -, -, -, -, -, e0, e1⟩ := idx_facts ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ (i 0).val ∧ (i 0).val < (i 0).val / 5000 * 5000 + 5000; omega
  | ⟨1, _⟩ => show win2_5.index _ (1 : Fin 2) * 1 ≤ (i 1).val ∧ (i 1).val < win2_5.index _ (1 : Fin 2) * 1 + 1; rw [e1]; omega

end Region

/-- The result array after the region: the head of the arrays the region finds. -/
theorem final (V : (c : Dev nD) → (b : Ref sig .tc) → Buf (Elt Ideal) ((c : Thread nD τ).loc b)) (c : Dev nD) :
    (dat2 (F := Ideal) V c).arrAt 5 cfg2.N
      = head (V c main_v29) (mat (V c main_arg10)) (row (V c main_v30) (0 : Fin 1)) (mat (V c main_arg12)) (row (V c main_v31) (0 : Fin 1)) :=
  (dat2 (F := Ideal) V c).arrAt_eq_of_cover 5 (G V c) (fun t _ => flushed_eq V c t) cover

end Cert.KernelIdeal.HeadRows

end
-- ==== Proof.Boundaries.lean ====
/-
  The contents of the kernel program's buffers at each region's entry and exit, read back to the argument arrays.

  Region 0 is entered after the first stretch of host operations: its row operands are the node features `x` and
  their neighbour sum, its weights the arguments as launched, its biases the argument vectors cast to one-row matrices.
  It leaves the first convolution in its output array. The second stretch computes the neighbour sum of that array
  with the same edge list (the sources and targets computed by the first stretch are still there: no region stages
  them), region 1 leaves the second convolution, region 2 the head of it, and the last operation reads the head's one
  column as a vector. Every buffer a segment does not write is read through it unchanged.
-/
import proofs.«132873_j64295660421276_1_alg».proof.Proof.Gen.KernelIdeal.Frame
import proofs.«132873_j64295660421276_1_alg».proof.Proof.Net
import proofs.«132873_j64295660421276_1_alg».proof.Proof.RoundOne
import proofs.«132873_j64295660421276_1_alg».proof.Proof.RoundTwo
import proofs.«132873_j64295660421276_1_alg».proof.Proof.HeadRows
set_option maxRecDepth 16384

noncomputable section

namespace Cert.KernelIdeal.Boundaries

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.DenseRows Cert.MlpRows Cert.Perceptron Cert.GinNet

variable (m : (ℓ : Loc nD τ sig) → Buf (Elt Ideal) ℓ) (ρ : Dev nD → PrngReg) (c : Dev nD)

/-! ## Region 0's entry: the first stretch of host operations -/

theorem entry0_x : V1 m ρ c main_arg0 = m ((c : Thread nD τ).loc main_arg0) := by
  show StableHlo.after hostOps0 (W0 m ρ c) (Proc.devRef .tc main_arg0) = _
  after_results <;> rfl
theorem entry0_sum : V1 m ρ c main_v13 = neighbourSum (m ((c : Thread nD τ).loc main_arg1)) (m ((c : Thread nD τ).loc main_arg0)) := by
  show StableHlo.after hostOps0 (W0 m ρ c) (Proc.devRef .tc main_v13) = _
  after_results <;> rfl
theorem entry0_wa : V1 m ρ c main_arg2 = m ((c : Thread nD τ).loc main_arg2) := by
  show StableHlo.after hostOps0 (W0 m ρ c) (Proc.devRef .tc main_arg2) = _
  after_results <;> rfl
theorem entry0_ba : V1 m ρ c main_v14 = shapeCast S1x128 (m ((c : Thread nD τ).loc main_arg3)) Facts₀.shapeCasts_S128_S1x128 := by
  show StableHlo.after hostOps0 (W0 m ρ c) (Proc.devRef .tc main_v14) = _
  after_results <;> rfl
theorem entry0_wb : V1 m ρ c main_arg4 = m ((c : Thread nD τ).loc main_arg4) := by
  show StableHlo.after hostOps0 (W0 m ρ c) (Proc.devRef .tc main_arg4) = _
  after_results <;> rfl
theorem entry0_bb : V1 m ρ c main_v15 = shapeCast S1x128 (m ((c : Thread nD τ).loc main_arg5)) Facts₀.shapeCasts_S128_S1x128 := by
  show StableHlo.after hostOps0 (W0 m ρ c) (Proc.devRef .tc main_v15) = _
  after_results <;> rfl

/-- The sources and targets of the edges, as the first stretch leaves them and region 0 keeps them. -/
theorem exit0_src : W2 m ρ c (Proc.devRef .tc main_v1) = sources (m ((c : Thread nD τ).loc main_arg1)) := by
  rw [W2_of_ne m ρ c main_v1 (by decide)]
  show StableHlo.after hostOps0 (W0 m ρ c) (Proc.devRef .tc main_v1) = _
  after_results <;> rfl
theorem exit0_tgt : W2 m ρ c (Proc.devRef .tc main_v3) = targets (m ((c : Thread nD τ).loc main_arg1)) := by
  rw [W2_of_ne m ρ c main_v3 (by decide)]
  show StableHlo.after hostOps0 (W0 m ρ c) (Proc.devRef .tc main_v3) = _
  after_results <;> rfl
theorem exit0_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl
theorem exit0_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem exit0_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl
theorem exit0_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl
theorem exit0_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl
theorem exit0_arg11 : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results <;> rfl
theorem exit0_arg12 : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results <;> rfl
theorem exit0_arg13 : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results <;> rfl

/-- The first convolution: what region 0 leaves in its output array. -/
theorem first_conv : W2 m ρ c (Proc.devRef .tc main_v16)
    = conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W2_arr m ρ c 6).trans ?_
  rw [RoundOne.final (V1 m ρ) c, entry0_x, entry0_sum, entry0_wa, entry0_ba, entry0_wb, entry0_bb, row_cast_vec, row_cast_vec]
  rfl

/-! ## Region 1's entry: the second stretch of host operations -/

theorem entry1_x : V3 m ρ c main_v16 = conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v16) = _
  after_results
  exact first_conv m ρ c
theorem entry1_sum : V3 m ρ c main_v26 = neighbourSum (m ((c : Thread nD τ).loc main_arg1)) (conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v26) = _
  after_results_simp
  rw [first_conv m ρ c, exit0_src, exit0_tgt]
  rfl
theorem entry1_wa : V3 m ρ c main_arg6 = m ((c : Thread nD τ).loc main_arg6) := by
  show StableHlo.after hostOps1 (W2 m ρ c) (Proc.devRef .tc main_arg6) = _
  after_results
  exact exit0_arg6 m ρ c
theorem entry1_ba : V3 m ρ c main_v27 = shapeCast S1x128 (m ((c : Thread nD τ).loc main_arg7)) Facts₀.shapeCasts_S128_S1x128 := by
  show StableHlo.after hostOps1 (W2 m ρ c) (Proc.devRef .tc main_v27) = _
  after_results
  rw [exit0_arg7]; rfl
theorem entry1_wb : V3 m ρ c main_arg8 = m ((c : Thread nD τ).loc main_arg8) := by
  show StableHlo.after hostOps1 (W2 m ρ c) (Proc.devRef .tc main_arg8) = _
  after_results
  exact exit0_arg8 m ρ c
theorem entry1_bb : V3 m ρ c main_v28 = shapeCast S1x128 (m ((c : Thread nD τ).loc main_arg9)) Facts₀.shapeCasts_S128_S1x128 := by
  show StableHlo.after hostOps1 (W2 m ρ c) (Proc.devRef .tc main_v28) = _
  after_results
  rw [exit0_arg9]; rfl

theorem exit1_arg10 : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  exact exit0_arg10 m ρ c
theorem exit1_arg11 : W4 m ρ c (Proc.devRef .tc main_arg11) = m ((c : Thread nD τ).loc main_arg11) := by
  rw [W4_of_ne m ρ c main_arg11 (by decide)]
  show StableHlo.after hostOps1 (W2 m ρ c) (Proc.devRef .tc main_arg11) = _
  after_results
  exact exit0_arg11 m ρ c
theorem exit1_arg12 : W4 m ρ c (Proc.devRef .tc main_arg12) = m ((c : Thread nD τ).loc main_arg12) := by
  rw [W4_of_ne m ρ c main_arg12 (by decide)]
  show StableHlo.after hostOps1 (W2 m ρ c) (Proc.devRef .tc main_arg12) = _
  after_results
  exact exit0_arg12 m ρ c
theorem exit1_arg13 : W4 m ρ c (Proc.devRef .tc main_arg13) = m ((c : Thread nD τ).loc main_arg13) := by
  rw [W4_of_ne m ρ c main_arg13 (by decide)]
  show StableHlo.after hostOps1 (W2 m ρ c) (Proc.devRef .tc main_arg13) = _
  after_results
  exact exit0_arg13 m ρ c

/-- The second convolution: what region 1 leaves in its output array. -/
theorem second_conv : W4 m ρ c (Proc.devRef .tc main_v29) = conv (m ((c : Thread nD τ).loc main_arg1)) (conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  refine (W4_arr m ρ c 6).trans ?_
  rw [RoundTwo.final (V3 m ρ) c, entry1_x m ρ c, entry1_sum m ρ c, entry1_wa, entry1_ba, entry1_wb, entry1_bb, row_cast_vec, row_cast_vec]
  rfl

/-! ## Region 2's entry: the third stretch of host operations -/

theorem entry2_x : V5 m ρ c main_v29 = conv (m ((c : Thread nD τ).loc main_arg1)) (conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v29) = _
  after_results
  exact second_conv m ρ c
theorem entry2_w3 : V5 m ρ c main_arg10 = m ((c : Thread nD τ).loc main_arg10) := by
  show StableHlo.after hostOps2 (W4 m ρ c) (Proc.devRef .tc main_arg10) = _
  after_results
  exact exit1_arg10 m ρ c
theorem entry2_b3 : V5 m ρ c main_v30 = shapeCast S1x64 (m ((c : Thread nD τ).loc main_arg11)) Facts₀.shapeCasts_S64_S1x64 := by
  show StableHlo.after hostOps2 (W4 m ρ c) (Proc.devRef .tc main_v30) = _
  after_results
  rw [exit1_arg11]; rfl
theorem entry2_w4 : V5 m ρ c main_arg12 = m ((c : Thread nD τ).loc main_arg12) := by
  show StableHlo.after hostOps2 (W4 m ρ c) (Proc.devRef .tc main_arg12) = _
  after_results
  exact exit1_arg12 m ρ c
theorem entry2_b4 : V5 m ρ c main_v31 = shapeCast S1x1 (m ((c : Thread nD τ).loc main_arg13)) Facts₀.shapeCasts_S1_S1x1 := by
  show StableHlo.after hostOps2 (W4 m ρ c) (Proc.devRef .tc main_v31) = _
  after_results
  rw [exit1_arg13]; rfl

/-- The head: what region 2 leaves in its output array. -/
theorem head_out : W6 m ρ c (Proc.devRef .tc main_v32)
    = head (conv (m ((c : Thread nD τ).loc main_arg1)) (conv (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) (mat (m ((c : Thread nD τ).loc main_arg10))) (vec (m ((c : Thread nD τ).loc main_arg11))) (mat (m ((c : Thread nD τ).loc main_arg12))) (vec (m ((c : Thread nD τ).loc main_arg13))) := by
  refine (W6_arr m ρ c 5).trans ?_
  rw [HeadRows.final (V5 m ρ) c, entry2_x m ρ c, entry2_w3, entry2_b3, entry2_w4, entry2_b4, row_cast_vec, row_cast_vec]

/-! ## The result: the last stretch reads the head's one column as a vector -/

theorem result_eq : W7 m ρ c (Proc.devRef .tc main_v33)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps3 (W6 m ρ c) (Proc.devRef .tc main_v33) = _
  after_results
  rw [head_out m ρ c]
  rfl

end Cert.KernelIdeal.Boundaries
end
-- ==== Proof.RefRows.lean ====
/-
  The reference program's result is the network function of its fourteen argument arrays, on the extended reals.

  The reference computes, with `E` the edge list and `x` the node features,
      a₁ = neighbour sum of x along E,        h₁ = max (max ((1 · x + a₁) · w1a + b1a) 0 · w1b + b1b) 0,
      a₂ = neighbour sum of h₁ along E,       h₂ = max (max ((1 · h₁ + a₂) · w2a + b2a) 0 · w2b + b2b) 0,
      out = (max (h₂ · w3 + b3) 0 · w4 + b4) read as a vector,
  one operation at a time. The generated reading of the program names each operation's value; the proof walks those
  names. The neighbour sum is never opened: the reference's gather and scatter records are the same structure
  literals as the ones `neighbourSum` is stated with, so its value is `neighbourSum E ·` as it stands. The float word
  of one is the real `1`, and `1 * y = y` for every extended real `y`, so the factor in front of the features drops
  out. What is left of a round is the two-layer perceptron with both rectifiers applied to the features plus their
  neighbour sum, read row by row; what is left of the head is the two-layer perceptron with one rectifier.
-/
import proofs.«132873_j64295660421276_1_alg».proof.Defs
import proofs.«132873_j64295660421276_1_alg».proof.Proof.Gen.ReferenceIdeal.Run
import proofs.«132873_j64295660421276_1_alg».proof.Proof.Gen.ReferenceIdeal.Read
import proofs.«132873_j64295660421276_1_alg».proof.Proof.LibDenseRows
import proofs.«132873_j64295660421276_1_alg».proof.Proof.LibMlpRows
import proofs.«132873_j64295660421276_1_alg».proof.Proof.LibPerceptron
import proofs.«132873_j64295660421276_1_alg».proof.Proof.GinNet
import proofs.«132873_j64295660421276_1_alg».proof.Proof.Net

noncomputable section

namespace Cert.ReferenceIdeal.RefRows

open Idealize.ShloMosaic Idealize.ShloMosaic.ValueIdx Cert.DenseRows Cert.MlpRows Cert.Perceptron Cert.GinNet
open Cert.ReferenceIdeal Cert.ReferenceIdeal.Gen Cert.ReferenceIdeal.Read

/-! ## The float word of one, and the three contractions -/

/-- The float word `0x3F800000` denotes the real number one. -/
theorem ofBits_one : Ideal.ofBits .f32 0x3F800000#32 = 1 := by
  simp [Ideal.ofBits, Ideal.ieee, -EReal.coe_mul]; norm_num

/-- The `[50000, 128] · [128, 128]` contraction has the plain dimension numbers. -/
theorem dot1_eq : Cert.ReferenceIdeal.dot_S50000x128_S128x128_S50000x128_1_0_0_1_n_n = DotDims.plain 50000 128 128 := rfl

/-- The `[50000, 128] · [128, 64]` contraction has the plain dimension numbers. -/
theorem dot2_eq : Cert.ReferenceIdeal.dot_S50000x128_S128x64_S50000x64_1_0_0_1_n_n = DotDims.plain 50000 128 64 := rfl

/-- The `[50000, 64] · [64, 1]` contraction has the plain dimension numbers. -/
theorem dot3_eq : Cert.ReferenceIdeal.dot_S50000x64_S64x1_S50000x1_1_0_0_1_n_n = DotDims.plain 50000 64 1 := rfl

/-- An array multiplied entrywise by the splat of one is the array: `1 * y = y` for every extended real. -/
theorem one_mul_array (X : FVec Ideal S50000x128 .f32) :
    mulf (broadcastInDim S50000x128 ![] bcast_S_S50000x128 (constant (F := Ideal) S_ .f32 0x3F800000#32)) X = X := by
  funext j
  show broadcastInDim S50000x128 ![] bcast_S_S50000x128 (constant (F := Ideal) S_ .f32 0x3F800000#32) j * X j = X j
  rw [splat_apply]
  show Ideal.ofBits .f32 0x3F800000#32 * X j = X j
  rw [ofBits_one, one_mul]

/-! ## One round, as the reference spells it -/

/-- The reference's spelling of a round on features `X` and neighbour sums `A` is the round: row by row it is the
    perceptron of row `r` of `1 · X` plus row `r` of `A`, and `1 · X = X`. -/
theorem host_round (X A : FVec Ideal S50000x128 .f32) (wa : FVec Ideal S128x128 .f32) (ba : FVec Ideal S128 .f32)
    (wb : FVec Ideal S128x128 .f32) (bb : FVec Ideal S128 .f32) :
    maximumf (addf (Host.dotGeneral dot_S50000x128_S128x128_S50000x128_1_0_0_1_n_n none
        (maximumf (addf (Host.dotGeneral dot_S50000x128_S128x128_S50000x128_1_0_0_1_n_n none
              (addf (mulf (broadcastInDim S50000x128 ![] bcast_S_S50000x128 (constant (F := Ideal) S_ .f32 0x3F800000#32)) X) A) wa)
            (broadcastInDim S50000x128 ![0, 1] bcast_S1x128_S50000x128_0_1 (broadcastInDim S1x128 ![1] bcast_S128_S1x128_1 ba)))
          (broadcastInDim S50000x128 ![] bcast_S_S50000x128 (constant (F := Ideal) S_ .f32 0x00000000#32)))
        wb) (broadcastInDim S50000x128 ![0, 1] bcast_S1x128_S50000x128_0_1 (broadcastInDim S1x128 ![1] bcast_S128_S1x128_1 bb)))
      (broadcastInDim S50000x128 ![] bcast_S_S50000x128 (constant (F := Ideal) S_ .f32 0x00000000#32))
      = round X A (mat wa) (vec ba) (mat wb) (vec bb) := by
  refine ext_rows _ _ fun r => ?_
  rw [one_mul_array, row_round]
  exact whole_row _ dot1_eq _ dot1_eq X A wa ba wb bb bcast_S128_S1x128_1 bcast_S1x128_S50000x128_0_1 ![] bcast_S_S50000x128 r

/-! ## The staged values of the reference -/

/-- The first scatter's value is the neighbour sum of the features: the same chain of operations over equal records. -/
theorem sum1 (x0 : FVec Ideal S50000x128 .f32) (x1 : (⟨S2x800000, .i32⟩ : BufTy).Contents (Elt Ideal)) :
    val_main_v13 (F := Ideal) x0 x1 = neighbourSum x1 x0 := rfl

/-- The first round's value is the first convolution. -/
theorem conv1 (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32) :
    val_main_v26 (F := Ideal) x0 x1 x2 x3 x4 x5 = conv x1 x0 x2 x3 x4 x5 :=
  (host_round x0 (val_main_v13 (F := Ideal) x0 x1) x2 x3 x4 x5).trans (by rw [sum1]; rfl)

/-- The second scatter's value is the neighbour sum of the first round's value. -/
theorem sum2 (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32) :
    val_main_v36 (F := Ideal) x0 x1 x2 x3 x4 x5 = neighbourSum x1 (val_main_v26 (F := Ideal) x0 x1 x2 x3 x4 x5) := rfl

/-- The second round's value is the second convolution of the first. -/
theorem conv2 (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32)
    (x6 : FVec Ideal S128x128 .f32) (x7 : FVec Ideal S128 .f32) (x8 : FVec Ideal S128x128 .f32) (x9 : FVec Ideal S128 .f32) :
    val_main_v49 (F := Ideal) x0 x1 x2 x3 x4 x5 x6 x7 x8 x9 = conv x1 (conv x1 x0 x2 x3 x4 x5) x6 x7 x8 x9 :=
  (host_round (val_main_v26 (F := Ideal) x0 x1 x2 x3 x4 x5) (val_main_v36 (F := Ideal) x0 x1 x2 x3 x4 x5) x6 x7 x8 x9).trans
    (by rw [sum2, conv1]; rfl)

/-- The value before the final reshape is the head of the second convolution: the host's spelling of a two-layer
    perceptron with one rectifier, applied to every row. -/
theorem head1 (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32)
    (x6 : FVec Ideal S128x128 .f32) (x7 : FVec Ideal S128 .f32) (x8 : FVec Ideal S128x128 .f32) (x9 : FVec Ideal S128 .f32)
    (x10 : FVec Ideal S128x64 .f32) (x11 : FVec Ideal S64 .f32) (x12 : FVec Ideal S64x1 .f32) (x13 : FVec Ideal S1 .f32) :
    val_main_v58 (F := Ideal) x0 x1 x2 x3 x4 x5 x6 x7 x8 x9 x10 x11 x12 x13
      = head (conv x1 (conv x1 x0 x2 x3 x4 x5) x6 x7 x8 x9) (mat x10) (vec x11) (mat x12) (vec x13) :=
  (host_eq_rows _ dot2_eq _ dot3_eq (val_main_v49 (F := Ideal) x0 x1 x2 x3 x4 x5 x6 x7 x8 x9) x10 x11 x12 x13
      ![] bcast_S_S50000x64 bcast_S64_S1x64_1 bcast_S1x64_S50000x64_0_1 bcast_S1_S1x1_1 bcast_S1x1_S50000x1_0_1).trans
    (by rw [conv2]; rfl)

/-- The last staged value, the head's single column read as a vector, is the network. -/
theorem val_eq_net (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32)
    (x6 : FVec Ideal S128x128 .f32) (x7 : FVec Ideal S128 .f32) (x8 : FVec Ideal S128x128 .f32) (x9 : FVec Ideal S128 .f32)
    (x10 : FVec Ideal S128x64 .f32) (x11 : FVec Ideal S64 .f32) (x12 : FVec Ideal S64x1 .f32) (x13 : FVec Ideal S1 .f32) :
    val_main_v59 (F := Ideal) x0 x1 x2 x3 x4 x5 x6 x7 x8 x9 x10 x11 x12 x13
      = net x0 x1 x2 x3 x4 x5 x6 x7 x8 x9 x10 x11 x12 x13 := by
  unfold val_main_v59 net
  rw [head1]

/-! ## The result -/

/-- The reference's result, as its run states it, is the network of the fourteen argument arrays at launch. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v59 (F := Ideal) m c
      = Cert.GinNet.net
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13)) :=
  (val_main_v59_eq (F := Ideal) m c).trans (val_eq_net _ _ _ _ _ _ _ _ _ _ _ _ _ _)

end Cert.ReferenceIdeal.RefRows

end
-- ==== Proof.lean ====
/-
  The certificate of the two-round graph network: the kernel program (three row-blocked regions — two rounds and
  the head — among host operations that gather and add the neighbours' rows) against the reference (the same
  network on whole arrays), on the extended reals.

  Both programs compute, from the node features x and the edge list E,
      h₁ = max (max ((x + S x)·W1a + b1a) 0 · W1b + b1b) 0,   h₂ = max (max ((h₁ + S h₁)·W2a + b2a) 0 · W2b + b2b) 0,
      out = max (h₂·W3 + b3) 0 · W4 + b4,
  where S is the neighbour sum along E — the same chain of host operations in both programs, carried as one function
  and never opened. The kernel narrows the operands of every product to a shorter float format, which is the identity
  on the extended reals; it accumulates each product into zeros, which is the plain contraction; it works on blocks
  of 5000 consecutive rows, and every layer reads a row of its operand alone, so a block computes exactly its rows of
  the whole. The reference multiplies x by the constant 1 before adding, and 1 · y = y for every extended real. No
  law used needs a finite operand, so the precondition is never opened.

  The frames of the two kernel programs are the generated ones; the reference's frame is its generated run with the
  result dropped; the idealization rewrote no operation, so there is nothing to preserve.
-/
import proofs.«132873_j64295660421276_1_alg».proof.Defs
import proofs.«132873_j64295660421276_1_alg».proof.Proof.Gen.Kernel
import proofs.«132873_j64295660421276_1_alg».proof.Proof.Gen.Kernel.Skeleton
import proofs.«132873_j64295660421276_1_alg».proof.Proof.Gen.Kernel.Launch
import proofs.«132873_j64295660421276_1_alg».proof.Proof.Gen.Kernel.Points
import proofs.«132873_j64295660421276_1_alg».proof.Proof.Gen.Kernel.Frame
import proofs.«132873_j64295660421276_1_alg».proof.Proof.Gen.KernelIdeal
import proofs.«132873_j64295660421276_1_alg».proof.Proof.Gen.KernelIdeal.Skeleton
import proofs.«132873_j64295660421276_1_alg».proof.Proof.Gen.KernelIdeal.Launch
import proofs.«132873_j64295660421276_1_alg».proof.Proof.Gen.KernelIdeal.Points
import proofs.«132873_j64295660421276_1_alg».proof.Proof.Gen.KernelIdeal.Frame
import proofs.«132873_j64295660421276_1_alg».proof.Proof.Gen.ReferenceIdeal
import proofs.«132873_j64295660421276_1_alg».proof.Proof.Gen.ReferenceIdeal.Run
import proofs.«132873_j64295660421276_1_alg».proof.Proof.Gen.Pre_finite_inputs
import proofs.«132873_j64295660421276_1_alg».proof.Proof.WholeRun
import proofs.«132873_j64295660421276_1_alg».proof.Proof.Boundaries
import proofs.«132873_j64295660421276_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the argument arrays in their result buffer: the kernel program by its
    run and the contents read back through its segments, the reference by its run and its term read row by row. -/
theorem algebraic : Cert.algebraic_KernelIdeal_ReferenceIdeal := by
  intro m ρ m' ρ' _ hagree
  refine ⟨fun c => Cert.GinNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Boundaries.result_eq m ρ c), (h c).2⟩)
      (Cert.KernelIdeal.WholeRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.RefRows.result_eq m' c, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
